-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x32 : Shape := ⟨2, ![16384, 32]⟩
abbrev S16384x16384 : Shape := ⟨2, ![16384, 16384]⟩
abbrev S32x128 : Shape := ⟨2, ![32, 128]⟩
abbrev S128 : Shape := ⟨1, ![128]⟩
abbrev S128x32 : Shape := ⟨2, ![128, 32]⟩
abbrev S32 : Shape := ⟨1, ![32]⟩
abbrev S64x128 : Shape := ⟨2, ![64, 128]⟩
abbrev S_ : Shape := ⟨0, ![]⟩

class Facts : Prop where
  bcast_S_S16384x32 : S_.BroadcastsInDim S16384x32 (![] : Fin 0 → Fin S16384x32.rank)
  reducesTo_S16384x32_S_d0_1 : S16384x32.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S64x128 : S_.BroadcastsInDim S64x128 (![] : Fin 0 → Fin S64x128.rank)
  reducesTo_S64x128_S_d0_1 : S64x128.ReducesTo [0, 1] S_

variable [Facts]

def fn_part2 {F : FTy → Type} [FloatOps F] (main_arg7 : FVec F S128 .f32) (main_arg8 : FVec F S128x32 .f32) (main_arg9 : FVec F S32 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x32 .f32 := Host.absf main_arg8
  let main_cst_14 : FVec F S_ .f32 := constant S_ .f32 0x7F800000#32
  let main_v40 : FVec F S128x32 .f32 := broadcastInDim S128x32 ![] bcast_S_S128x32 main_cst_14
  let main_v41 : IVec S128x32 1 := cmpf .olt main_v39 main_v40
  let main_c_15 : IVec S_ 1 := constantI S_ 1 1#1
  let main_v42 : IVec S_ 1 := (fun x v => Host.reduce IntOp.andi x v reducesTo_S128x32_S_d0_1 h_S_) main_v41 main_c_15
  let main_v43 : IVec S_ 1 := andi main_v38 main_v42
  let main_v44 : FVec F S32 .f32 := Host.absf main_arg9
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  main_v48

def fn_part1 {F : FTy → Type} [FloatOps F] (main_arg4 : FVec F S128x32 .f32) (main_arg5 : FVec F S32 .f32) (main_arg6 : FVec F S64x128 .f32) (main_arg7 : FVec F S128 .f32) (main_arg8 : FVec F S128x32 .f32) (main_arg9 : FVec F S32 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x32 .f32 := Host.absf main_arg4
  let main_cst_6 : FVec F S_ .f32 := constant S_ .f32 0x7F800000#32
  let main_v20 : FVec F S128x32 .f32 := broadcastInDim S128x32 ![] bcast_S_S128x32 main_cst_6
  let main_v21 : IVec S128x32 1 := cmpf .olt main_v19 main_v20
  let main_c_7 : IVec S_ 1 := constantI S_ 1 1#1
  let main_v22 : IVec S_ 1 := (fun x v => Host.reduce IntOp.andi x v reducesTo_S128x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S64x128 .f32 := Host.absf main_arg6
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S16384x32 .f32) (main_arg1 : FVec F S16384x16384 .f32) (main_arg2 : FVec F S32x128 .f32) (main_arg3 : FVec F S128 .f32) (main_arg4 : FVec F S128x32 .f32) (main_arg5 : FVec F S32 .f32) (main_arg6 : FVec F S64x128 .f32) (main_arg7 : FVec F S128 .f32) (main_arg8 : FVec F S128x32 .f32) (main_arg9 : FVec F S32 .f32) : IVec S_ 1 :=
  let main_v0 : FVec F S16384x32 .f32 := Host.absf main_arg0
  let main_cst : FVec F S_ .f32 := constant S_ .f32 0x7F800000#32
  let main_v1 : FVec F S16384x32 .f32 := broadcastInDim S16384x32 ![] bcast_S_S16384x32 main_cst
  let main_v2 : IVec S16384x32 1 := cmpf .olt main_v0 main_v1
  let main_c : IVec S_ 1 := constantI S_ 1 1#1
  let main_v3 : IVec S_ 1 := (fun x v => Host.reduce IntOp.andi x v reducesTo_S16384x32_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S32x128 .f32 := Host.absf main_arg2
  let main_cst_2 : FVec F S_ .f32 := constant S_ .f32 0x7F800000#32
  let main_v10 : FVec F S32x128 .f32 := broadcastInDim S32x128 ![] bcast_S_S32x128 main_cst_2
  let main_v11 : IVec S32x128 1 := cmpf .olt main_v9 main_v10
  let main_c_3 : IVec S_ 1 := constantI S_ 1 1#1
  let main_v12 : IVec S_ 1 := (fun x v => Host.reduce IntOp.andi x v reducesTo_S32x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S16384x32 : Shape := ⟨2, ![16384, 32]⟩
abbrev S16384x16384 : Shape := ⟨2, ![16384, 16384]⟩
abbrev S32x128 : Shape := ⟨2, ![32, 128]⟩
abbrev S128 : Shape := ⟨1, ![128]⟩
abbrev S128x32 : Shape := ⟨2, ![128, 32]⟩
abbrev S32 : Shape := ⟨1, ![32]⟩
abbrev S64x128 : Shape := ⟨2, ![64, 128]⟩
abbrev S16384x128 : Shape := ⟨2, ![16384, 128]⟩
abbrev S1x128 : Shape := ⟨2, ![1, 128]⟩
abbrev S_ : Shape := ⟨0, ![]⟩
abbrev S1x32 : Shape := ⟨2, ![1, 32]⟩
abbrev S256x16384 : Shape := ⟨2, ![256, 16384]⟩
abbrev S256x32 : Shape := ⟨2, ![256, 32]⟩
abbrev S256 : Shape := ⟨1, ![256]⟩
abbrev S256x1 : Shape := ⟨2, ![256, 1]⟩
abbrev S256x64 : Shape := ⟨2, ![256, 64]⟩
abbrev S256x128 : Shape := ⟨2, ![256, 128]⟩

abbrev nBuf : Space → Nat
  | .hbm => 22
  | .vmem => 11
  | .smem => 0
  | _ => 0

abbrev bufTy : (tb : Table) → Fin (tcTables nBuf tb) → BufTy
  | .hbm, ⟨0, _⟩ => ⟨S16384x32, .f32⟩
  | .hbm, ⟨1, _⟩ => ⟨S16384x16384, .f32⟩
  | .hbm, ⟨2, _⟩ => ⟨S32x128, .f32⟩
  | .hbm, ⟨3, _⟩ => ⟨S128, .f32⟩
  | .hbm, ⟨4, _⟩ => ⟨S128x32, .f32⟩
  | .hbm, ⟨5, _⟩ => ⟨S32, .f32⟩
  | .hbm, ⟨6, _⟩ => ⟨S64x128, .f32⟩
  | .hbm, ⟨7, _⟩ => ⟨S128, .f32⟩
  | .hbm, ⟨8, _⟩ => ⟨S128x32, .f32⟩
  | .hbm, ⟨9, _⟩ => ⟨S32, .f32⟩
  | .hbm, ⟨10, _⟩ => ⟨S16384x128, .f32⟩
  | .hbm, ⟨11, _⟩ => ⟨S1x128, .f32⟩
  | .hbm, ⟨12, _⟩ => ⟨S16384x128, .f32⟩
  | .hbm, ⟨13, _⟩ => ⟨S16384x128, .f32⟩
  | .hbm, ⟨14, _⟩ => ⟨S_, .f32⟩
  | .hbm, ⟨15, _⟩ => ⟨S16384x128, .f32⟩
  | .hbm, ⟨16, _⟩ => ⟨S16384x128, .f32⟩
  | .hbm, ⟨17, _⟩ => ⟨S16384x32, .f32⟩
  | .hbm, ⟨18, _⟩ => ⟨S1x32, .f32⟩
  | .hbm, ⟨19, _⟩ => ⟨S16384x32, .f32⟩
  | .hbm, ⟨20, _⟩ => ⟨S16384x32, .f32⟩
  | .hbm, ⟨21, _⟩ => ⟨S16384x32, .f32⟩
  | .local _ .vmem, ⟨0, _⟩ => ⟨S256x16384, .f32⟩
  | .local _ .vmem, ⟨1, _⟩ => ⟨S256x16384, .f32⟩
  | .local _ .vmem, ⟨2, _⟩ => ⟨S16384x32, .f32⟩
  | .local _ .vmem, ⟨3, _⟩ => ⟨S256x32, .f32⟩
  | .local _ .vmem, ⟨4, _⟩ => ⟨S256x32, .f32⟩
  | .local _ .vmem, ⟨5, _⟩ => ⟨S64x128, .f32⟩
  | .local _ .vmem, ⟨6, _⟩ => ⟨S128, .f32⟩
  | .local _ .vmem, ⟨7, _⟩ => ⟨S128x32, .f32⟩
  | .local _ .vmem, ⟨8, _⟩ => ⟨S32, .f32⟩
  | .local _ .vmem, ⟨9, _⟩ => ⟨S256x32, .f32⟩
  | .local _ .vmem, ⟨10, _⟩ => ⟨S256x32, .f32⟩
  | _, _ => ⟨S16384x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16384x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S16384x128 : S_.BroadcastsInDim S16384x128 (![] : Fin 0 → Fin S16384x128.rank)
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  inb_S256x16384_S256x16384_0_0 : ∀ a, (![0, 0] : Fin 2 → Nat) a + S256x16384.size a ≤ S256x16384.size a
  h_S256x16384 : 0 < S256x16384.numel
  reduces_S256x16384_S256 : S256x16384.Reduces [1] S256
  shapeCasts_S256_S256x1 : S256.ShapeCasts S256x1
  inb_S16384x32_S16384x32_0_0 : ∀ a, (![0, 0] : Fin 2 → Nat) a + S16384x32.size a ≤ S16384x32.size a
  h_S16384x32 : 0 < S16384x32.numel
  shapeCasts_S16384x32_S16384x32 : S16384x32.ShapeCasts S16384x32
  broadcasts_S256x1_S256x32 : S256x1.Broadcasts S256x32
  inb_S256x32_S256x32_0_0 : ∀ a, (![0, 0] : Fin 2 → Nat) a + S256x32.size a ≤ S256x32.size a
  h_S256x32 : 0 < S256x32.numel
  concatenates_S256x32_S256x32_S256x64_d1 : Shape.Concatenates [S256x32, S256x32] S256x64 1
  inb_S64x128_S64x128_0_0 : ∀ a, (![0, 0] : Fin 2 → Nat) a + S64x128.size a ≤ S64x128.size a
  h_S64x128 : 0 < S64x128.numel
  inb_S128_S128_0 : ∀ a, (![0] : Fin 1 → Nat) a + S128.size a ≤ S128.size a
  h_S128 : 0 < S128.numel
  shapeCasts_S128_S1x128 : S128.ShapeCasts S1x128
  broadcasts_S1x128_S256x128 : S1x128.Broadcasts S256x128
  inb_S128x32_S128x32_0_0 : ∀ a, (![0, 0] : Fin 2 → Nat) a + S128x32.size a ≤ S128x32.size a
  h_S128x32 : 0 < S128x32.numel
  inb_S32_S32_0 : ∀ a, (![0] : Fin 1 → Nat) a + S32.size a ≤ S32.size a
  h_S32 : 0 < S32.numel
  shapeCasts_S32_S1x32 : S32.ShapeCasts S1x32
  broadcasts_S1x32_S256x32 : S1x32.Broadcasts S256x32
  dot_S16384x32_S32x128_S16384x128_1_0_0_1_n_n_wf : DotDims.WF S16384x32 S32x128 S16384x128 [1] [0] [0] [1] [] []
  dot_S16384x128_S128x32_S16384x32_1_0_0_1_n_n_wf : DotDims.WF S16384x128 S128x32 S16384x32 [1] [0] [0] [1] [] []
  dot_S256x16384_S16384x32_S256x32_1_0_0_1_n_n_wf : DotDims.WF S256x16384 S16384x32 S256x32 [1] [0] [0] [1] [] []
  dot_S256x64_S64x128_S256x128_1_0_0_1_n_n_wf : DotDims.WF S256x64 S64x128 S256x128 [1] [0] [0] [1] [] []
  dot_S256x128_S128x32_S256x32_1_0_0_1_n_n_wf : DotDims.WF S256x128 S128x32 S256x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x16384.size a ≤ S16384x16384.size a
  hwx0_0 : ∀ i : grid0.Coords, EltTy.bits .f32 = 32 ∨ (Rect.block (s := S16384x16384) S256x16384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16384x32.size a ≤ S16384x32.size a
  hwx0_1 : ∀ i : grid0.Coords, EltTy.bits .f32 = 32 ∨ (Rect.block (s := S16384x32) S16384x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x32.size a ≤ S16384x32.size a
  hwx0_2 : ∀ i : grid0.Coords, EltTy.bits .f32 = 32 ∨ (Rect.block (s := S16384x32) S256x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x32.size a ≤ S128x32.size a
  hwx0_5 : ∀ i : grid0.Coords, EltTy.bits .f32 = 32 ∨ (Rect.block (s := S128x32) S128x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32.size a ≤ S32.size a
  hwx0_6 : ∀ i : grid0.Coords, EltTy.bits .f32 = 32 ∨ (Rect.block (s := S32) S32.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x32.size a ≤ S16384x32.size a
  hwx0_7 : ∀ i : grid0.Coords, EltTy.bits .f32 = 32 ∨ (Rect.block (s := S16384x32) S256x32.size (cc0_transform_7 i) (hinb0_7 i)).WholeWords (EltTy.packing .f32)

variable [Facts₀]

def dot_S16384x32_S32x128_S16384x128_1_0_0_1_n_n : DotDims S16384x32 S32x128 S16384x128 where
  lhsContracting := [1]
  rhsContracting := [0]
  lhsNonContracting := [0]
  rhsNonContracting := [1]
  lhsBatch := []
  rhsBatch := []
  wf := dot_S16384x32_S32x128_S16384x128_1_0_0_1_n_n_wf
def dot_S16384x128_S128x32_S16384x32_1_0_0_1_n_n : DotDims S16384x128 S128x32 S16384x32 where
  lhsContracting := [1]
  rhsContracting := [0]
  lhsNonContracting := [0]
  rhsNonContracting := [1]
  lhsBatch := []
  rhsBatch := []
  wf := dot_S16384x128_S128x32_S16384x32_1_0_0_1_n_n_wf
def dot_S256x16384_S16384x32_S256x32_1_0_0_1_n_n : DotDims S256x16384 S16384x32 S256x32 where
  lhsContracting := [1]
  rhsContracting := [0]
  lhsNonContracting := [0]
  rhsNonContracting := [1]
  lhsBatch := []
  rhsBatch := []
  wf := dot_S256x16384_S16384x32_S256x32_1_0_0_1_n_n_wf
def dot_S256x64_S64x128_S256x128_1_0_0_1_n_n : DotDims S256x64 S64x128 S256x128 where
  lhsContracting := [1]
  rhsContracting := [0]
  lhsNonContracting := [0]
  rhsNonContracting := [1]
  lhsBatch := []
  rhsBatch := []
  wf := dot_S256x64_S64x128_S256x128_1_0_0_1_n_n_wf
def dot_S256x128_S128x32_S256x32_1_0_0_1_n_n : DotDims S256x128 S128x32 S256x32 where
  lhsContracting := [1]
  rhsContracting := [0]
  lhsNonContracting := [0]
  rhsNonContracting := [1]
  lhsBatch := []
  rhsBatch := []
  wf := dot_S256x128_S128x32_S256x32_1_0_0_1_n_n_wf

abbrev win0_0 : Pipeline.Window sig grid0 :=
  Pipeline.Window.ofSpec (Memref.whole main_arg1) S256x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S16384x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S256x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S128x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S256x32.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x32 : Shape := ⟨2, ![16384, 32]⟩
abbrev S16384x16384 : Shape := ⟨2, ![16384, 16384]⟩
abbrev S32x128 : Shape := ⟨2, ![32, 128]⟩
abbrev S128 : Shape := ⟨1, ![128]⟩
abbrev S128x32 : Shape := ⟨2, ![128, 32]⟩
abbrev S32 : Shape := ⟨1, ![32]⟩
abbrev S64x128 : Shape := ⟨2, ![64, 128]⟩
abbrev S16384x128 : Shape := ⟨2, ![16384, 128]⟩
abbrev S1x128 : Shape := ⟨2, ![1, 128]⟩
abbrev S_ : Shape := ⟨0, ![]⟩
abbrev S1x32 : Shape := ⟨2, ![1, 32]⟩
abbrev S16384 : Shape := ⟨1, ![16384]⟩
abbrev S16384x1 : Shape := ⟨2, ![16384, 1]⟩
abbrev S16384x64 : Shape := ⟨2, ![16384, 64]⟩

abbrev nBuf : Space → Nat
  | .hbm => 43
  | .vmem => 0
  | .smem => 0
  | _ => 0

abbrev bufTy : (tb : Table) → Fin (tcTables nBuf tb) → BufTy
  | .hbm, ⟨0, _⟩ => ⟨S16384x32, .f32⟩
  | .hbm, ⟨1, _⟩ => ⟨S16384x16384, .f32⟩
  | .hbm, ⟨2, _⟩ => ⟨S32x128, .f32⟩
  | .hbm, ⟨3, _⟩ => ⟨S128, .f32⟩
  | .hbm, ⟨4, _⟩ => ⟨S128x32, .f32⟩
  | .hbm, ⟨5, _⟩ => ⟨S32, .f32⟩
  | .hbm, ⟨6, _⟩ => ⟨S64x128, .f32⟩
  | .hbm, ⟨7, _⟩ => ⟨S128, .f32⟩
  | .hbm, ⟨8, _⟩ => ⟨S128x32, .f32⟩
  | .hbm, ⟨9, _⟩ => ⟨S32, .f32⟩
  | .hbm, ⟨10, _⟩ => ⟨S16384x128, .f32⟩
  | .hbm, ⟨11, _⟩ => ⟨S1x128, .f32⟩
  | .hbm, ⟨12, _⟩ => ⟨S16384x128, .f32⟩
  | .hbm, ⟨13, _⟩ => ⟨S16384x128, .f32⟩
  | .hbm, ⟨14, _⟩ => ⟨S_, .f32⟩
  | .hbm, ⟨15, _⟩ => ⟨S16384x128, .f32⟩
  | .hbm, ⟨16, _⟩ => ⟨S16384x128, .f32⟩
  | .hbm, ⟨17, _⟩ => ⟨S16384x32, .f32⟩
  | .hbm, ⟨18, _⟩ => ⟨S1x32, .f32⟩
  | .hbm, ⟨19, _⟩ => ⟨S16384x32, .f32⟩
  | .hbm, ⟨20, _⟩ => ⟨S16384x32, .f32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S_, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x16384, .f32⟩
  | .hbm, ⟨29, _⟩ => ⟨S16384x16384, .f32⟩
  | .hbm, ⟨30, _⟩ => ⟨S16384x32, .f32⟩
  | .hbm, ⟨31, _⟩ => ⟨S16384x64, .f32⟩
  | .hbm, ⟨32, _⟩ => ⟨S16384x128, .f32⟩
  | .hbm, ⟨33, _⟩ => ⟨S1x128, .f32⟩
  | .hbm, ⟨34, _⟩ => ⟨S16384x128, .f32⟩
  | .hbm, ⟨35, _⟩ => ⟨S16384x128, .f32⟩
  | .hbm, ⟨36, _⟩ => ⟨S_, .f32⟩
  | .hbm, ⟨37, _⟩ => ⟨S16384x128, .f32⟩
  | .hbm, ⟨38, _⟩ => ⟨S16384x128, .f32⟩
  | .hbm, ⟨39, _⟩ => ⟨S16384x32, .f32⟩
  | .hbm, ⟨40, _⟩ => ⟨S1x32, .f32⟩
  | .hbm, ⟨41, _⟩ => ⟨S16384x32, .f32⟩
  | .hbm, ⟨42, _⟩ => ⟨S16384x32, .f32⟩
  | _, _ => ⟨S16384x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_cst_0 : Ref sig .tc := ⟨.hbm, 24, rfl⟩
abbrev main_call1_v0 : Ref sig .tc := ⟨.hbm, 25, rfl⟩
abbrev main_call1_v1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_call2_cst : Ref sig .tc := ⟨.hbm, 36, rfl⟩
abbrev main_call2_v0 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S16384x128 : S_.BroadcastsInDim S16384x128 (![] : Fin 0 → Fin S16384x128.rank)
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  reducesTo_S16384x16384_S16384_d1 : S16384x16384.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x16384_0_1 : S16384x1.BroadcastsInDim S16384x16384 (![0, 1] : Fin 2 → Fin S16384x16384.rank)
  concatenates_S16384x32_S16384x32_S16384x64_d1 : Shape.Concatenates [S16384x32, S16384x32] S16384x64 1
  dot_S16384x32_S32x128_S16384x128_1_0_0_1_n_n_wf : DotDims.WF S16384x32 S32x128 S16384x128 [1] [0] [0] [1] [] []
  dot_S16384x128_S128x32_S16384x32_1_0_0_1_n_n_wf : DotDims.WF S16384x128 S128x32 S16384x32 [1] [0] [0] [1] [] []
  dot_S16384x16384_S16384x32_S16384x32_1_0_0_1_n_n_wf : DotDims.WF S16384x16384 S16384x32 S16384x32 [1] [0] [0] [1] [] []
  dot_S16384x64_S64x128_S16384x128_1_0_0_1_n_n_wf : DotDims.WF S16384x64 S64x128 S16384x128 [1] [0] [0] [1] [] []

variable [Facts₀]

def dot_S16384x32_S32x128_S16384x128_1_0_0_1_n_n : DotDims S16384x32 S32x128 S16384x128 where
  lhsContracting := [1]
  rhsContracting := [0]
  lhsNonContracting := [0]
  rhsNonContracting := [1]
  lhsBatch := []
  rhsBatch := []
  wf := dot_S16384x32_S32x128_S16384x128_1_0_0_1_n_n_wf
def dot_S16384x128_S128x32_S16384x32_1_0_0_1_n_n : DotDims S16384x128 S128x32 S16384x32 where
  lhsContracting := [1]
  rhsContracting := [0]
  lhsNonContracting := [0]
  rhsNonContracting := [1]
  lhsBatch := []
  rhsBatch := []
  wf := dot_S16384x128_S128x32_S16384x32_1_0_0_1_n_n_wf
def dot_S16384x16384_S16384x32_S16384x32_1_0_0_1_n_n : DotDims S16384x16384 S16384x32 S16384x32 where
  lhsContracting := [1]
  rhsContracting := [0]
  lhsNonContracting := [0]
  rhsNonContracting := [1]
  lhsBatch := []
  rhsBatch := []
  wf := dot_S16384x16384_S16384x32_S16384x32_1_0_0_1_n_n_wf
def dot_S16384x64_S64x128_S16384x128_1_0_0_1_n_n : DotDims S16384x64 S64x128 S16384x128 where
  lhsContracting := [1]
  rhsContracting := [0]
  lhsNonContracting := [0]
  rhsNonContracting := [1]
  lhsBatch := []
  rhsBatch := []
  wf := dot_S16384x64_S64x128_S16384x128_1_0_0_1_n_n_wf

class Facts : Prop extends Facts₀ where

variable [Facts]
-- ==== Proof.RowLaw.lean ====
/-
  One row of the graph update, as a function of that row of the adjacency matrix.

  Node `r` gathers the messages of all nodes weighted by row `r` of the adjacency matrix and divides by the row's
  degree `deg = max (∑ₖ aₖ) 1`; the gathered row is joined to the node's own state and passed through a two-layer
  perceptron (64 → 128, ReLU, 128 → 32).  The division can be taken AFTER the weighted sum,
  `(∑ₖ aₖ · Mₖ) / deg`, or entry by entry BEFORE it, `∑ₖ (aₖ / deg) · Mₖ`.  When every `aₖ` is a real number the
  degree is a real number ≥ 1, so dividing by it is multiplying by the nonnegative real `1 / deg`, and a nonnegative
  real factor distributes over any sum of extended reals (infinite terms included): the two forms agree, whatever
  the messages are.
-/
import Idealize.ShloMosaic.PureOps.Ideal
import Idealize.ShloMosaic.PureOps.Ideal.Laws

noncomputable section

open scoped BigOperators

namespace Cert.GraphRow

open Idealize.ShloMosaic

/-- The float word of 1.0 denotes the number one. -/
theorem one_word : Ideal.ofBits .f32 0x3F800000#32 = ((1 : ℝ) : EReal) := by
  have h : Ideal.ofBits .f32 0x3F800000#32 = 1 := by
    simp [Ideal.ofBits, Ideal.ieee, -EReal.coe_mul]; norm_num
  rw [h, EReal.coe_one]

/-- The inclusion of the reals in the extended reals commutes with finite sums. -/
theorem coe_sum {ι : Type*} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A nonnegative real factor distributes over a finite sum of extended reals. -/
theorem mul_sum_of_nonneg {ι : Type*} (s : Finset ι) (c : ℝ) (hc : 0 ≤ c) (f : ι → EReal) :
    (c : EReal) * ∑ k ∈ s, f k = ∑ k ∈ s, (c : EReal) * f k := by
  classical
  induction s using Finset.induction_on with
  | empty => simp
  | insert a s ha ih =>
    rw [Finset.sum_insert ha, Finset.sum_insert ha,
      EReal.left_distrib_of_nonneg_of_ne_top (EReal.coe_nonneg.2 hc) (EReal.coe_ne_top c), ih]

/-- The weighted sum of the messages `M` by the row `a`, divided by the row's degree afterwards. -/
def aggAfter {n : ℕ} (a M : Fin n → EReal) : EReal :=
  Ideal.div (∑ k, a k * M k) (max (∑ k, a k) (Ideal.ofBits .f32 0x3F800000#32))

/-- The same with every weight divided by the degree first. -/
def aggBefore {n : ℕ} (a M : Fin n → EReal) : EReal :=
  ∑ k, Ideal.div (a k) (max (Ideal.ofBits .f32 0x3F800000#32) (Ideal.ofBits .f32 0x00000000#32 + ∑ k, a k)) * M k

/-- For a row of real weights the two agree: `(∑ₖ aₖ·Mₖ)·c = ∑ₖ (aₖ·c)·Mₖ` with `c = 1 / max (∑ₖ aₖ) 1 ≥ 0`. -/
theorem aggAfter_eq_aggBefore {n : ℕ} (a M : Fin n → EReal) (ha : ∀ k, ∃ r : ℝ, a k = (r : EReal)) :
    aggAfter a M = aggBefore a M := by
  choose r hr using ha
  have hs : ∑ k, a k = ((∑ k, r k : ℝ) : EReal) := by
    rw [coe_sum]; exact Finset.sum_congr rfl fun k _ => hr k
  have hmono : Monotone ((↑) : ℝ → EReal) := fun _ _ h => EReal.coe_le_coe_iff.2 h
  have hdeg : max (∑ k, a k) (Ideal.ofBits .f32 0x3F800000#32) = ((max (∑ k, r k) 1 : ℝ) : EReal) := by
    rw [hs, one_word, hmono.map_max]
  have hdeg' : max (Ideal.ofBits .f32 0x3F800000#32) (Ideal.ofBits .f32 0x00000000#32 + ∑ k, a k)
      = ((max (∑ k, r k) 1 : ℝ) : EReal) := by
    rw [Ideal.ofBits_zero_f32, zero_add, max_comm]; exact hdeg
  have hpos : (0 : ℝ) < max (∑ k, r k) 1 := lt_of_lt_of_le one_pos (le_max_right _ _)
  have hc : (0 : ℝ) ≤ 1 / max (∑ k, r k) 1 := div_nonneg zero_le_one hpos.le
  unfold aggAfter aggBefore
  rw [hdeg, hdeg', Ideal.div_coe hpos.ne', mul_comm, mul_sum_of_nonneg _ _ hc]
  refine Finset.sum_congr rfl fun k _ => ?_
  rw [Ideal.div_coe hpos.ne', ← mul_assoc, mul_comm ((1 / max (∑ k, r k) 1 : ℝ) : EReal) (a k)]

/-- The state row `s` joined with the gathered row `g` along the feature axis. -/
def joined (s g : Fin 32 → EReal) (j : Fin 64) : EReal :=
  if h : j.val < 32 then s ⟨j.val, h⟩ else g ⟨j.val - 32, by have := j.isLt; omega⟩

/-- The update perceptron on the joined row: `relu (joined · W₁ + b₁) · W₂ + b₂`, at output feature `d`. -/
def update (s g : Fin 32 → EReal) (W1 : Fin 64 → Fin 128 → EReal) (b1 : Fin 128 → EReal)
    (W2 : Fin 128 → Fin 32 → EReal) (b2 : Fin 32 → EReal) (d : Fin 32) : EReal :=
  (∑ q : Fin 128, max ((∑ j : Fin 64, joined s g j * W1 j q) + b1 q) (Ideal.ofBits .f32 0x00000000#32) * W2 q d) + b2 d

/-- Node `r`'s new state from row `a` of the adjacency matrix, the messages `M` and the node's state `s`,
    the degree division taken after the weighted sum … -/
def rowAfter (a : Fin 16384 → EReal) (M : Fin 16384 → Fin 32 → EReal) (s : Fin 32 → EReal)
    (W1 : Fin 64 → Fin 128 → EReal) (b1 : Fin 128 → EReal) (W2 : Fin 128 → Fin 32 → EReal) (b2 : Fin 32 → EReal)
    (d : Fin 32) : EReal :=
  update s (fun e => aggAfter a fun k => M k e) W1 b1 W2 b2 d

/-- … and taken before it. -/
def rowBefore (a : Fin 16384 → EReal) (M : Fin 16384 → Fin 32 → EReal) (s : Fin 32 → EReal)
    (W1 : Fin 64 → Fin 128 → EReal) (b1 : Fin 128 → EReal) (W2 : Fin 128 → Fin 32 → EReal) (b2 : Fin 32 → EReal)
    (d : Fin 32) : EReal :=
  update s (fun e => aggBefore a fun k => M k e) W1 b1 W2 b2 d

/-- On a row of real weights the two are one function. -/
theorem rowAfter_eq_rowBefore (a : Fin 16384 → EReal) (M : Fin 16384 → Fin 32 → EReal) (s : Fin 32 → EReal)
    (W1 : Fin 64 → Fin 128 → EReal) (b1 : Fin 128 → EReal) (W2 : Fin 128 → Fin 32 → EReal) (b2 : Fin 32 → EReal)
    (d : Fin 32) (ha : ∀ k, ∃ r : ℝ, a k = (r : EReal)) :
    rowAfter a M s W1 b1 W2 b2 d = rowBefore a M s W1 b1 W2 b2 d := by
  unfold rowAfter rowBefore
  exact congrArg (fun g => update s g W1 b1 W2 b2 d) (funext fun e => aggAfter_eq_aggBefore a _ ha)

end Cert.GraphRow

end
-- ==== Proof.RefValue.lean ====
/-
  The reference program's result, read at an index (r, d): node `r`'s new state with the degree division taken
  entry by entry before the weighted sum.  Each stage of the reference is read at one index through the generated
  read-at-an-index lemmas; the one stage they leave unread — the join of the state row with the gathered row along
  the feature axis — is read here: a coordinate below 32 falls in the states, one at or past 32 in the gathered row
  at that coordinate less 32.  The messages stay one unopened array.
-/
import proofs.«153163_j47777216200866_2_alg».proof.Proof.Gen.ReferenceIdeal.Read
import proofs.«153163_j47777216200866_2_alg».proof.Proof.RowLaw
import Idealize.ShloMosaic.Lib.ValueIdx
import Idealize.ShloMosaic.Lib.Pipeline.Value

noncomputable section

open scoped BigOperators

namespace Cert.ReferenceIdeal.RowValue

open Cert.ReferenceIdeal Cert.ReferenceIdeal.Gen Cert.ReferenceIdeal.Read Idealize.ShloMosaic Idealize.ShloMosaic.ValueIdx

/-- The degree the reference divides row `r` by, broadcast along the row: `max 1 (0 + ∑ₖ adj[r, k])`. -/
theorem deg_apply (x1 : (⟨S16384x16384, .f32⟩ : BufTy).Contents (Elt Ideal)) (r k : Fin 16384) :
    val_main_v12 (F := Ideal) x1 (ix2 r k)
      = max (Ideal.ofBits .f32 0x3F800000#32) (Ideal.ofBits .f32 0x00000000#32 + ∑ k' : Fin 16384, x1 (ix2 r k')) := by
  rw [val_main_v12_apply, val_main_v11_apply, val_main_call1_v1_apply, val_main_call1_v0_apply, val_main_cst_0_apply,
    val_main_v10_apply, val_main_v9_apply, val_main_cst_apply]
  simp only [Ideal.maximumf_def, Ideal.ofBits_def]
  refine congrArg (max _) (congrArg (_ + ·) (Finset.sum_congr rfl fun k' _ => congrArg x1 ?_))
  funext a; apply Fin.ext
  match a with
  | ⟨0, _⟩ => rfl
  | ⟨1, _⟩ => rfl

/-- The gathered row at feature `e`: `∑ₖ (adj[r, k] / deg r) · messages[k, e]`. -/
theorem agg_apply (x0 : (⟨S16384x32, .f32⟩ : BufTy).Contents (Elt Ideal)) (x1 : (⟨S16384x16384, .f32⟩ : BufTy).Contents (Elt Ideal))
    (x2 : (⟨S32x128, .f32⟩ : BufTy).Contents (Elt Ideal)) (x3 : (⟨S128, .f32⟩ : BufTy).Contents (Elt Ideal))
    (x4 : (⟨S128x32, .f32⟩ : BufTy).Contents (Elt Ideal)) (x5 : (⟨S32, .f32⟩ : BufTy).Contents (Elt Ideal))
    (r : Fin 16384) (e : Fin 32) :
    val_main_v14 (F := Ideal) x0 x1 x2 x3 x4 x5 (ix2 r e)
      = GraphRow.aggBefore (fun k => x1 (ix2 r k)) (fun k => val_main_v8 (F := Ideal) x0 x2 x3 x4 x5 (ix2 k e)) := by
  rw [val_main_v14_apply]
  unfold GraphRow.aggBefore
  refine Finset.sum_congr rfl fun k _ => ?_
  have el : lidx_main_v14 (ix2 r e) k = ix2 r k := funext fun a => Fin.ext (by
    match a with
    | ⟨0, _⟩ => rfl
    | ⟨1, _⟩ => rfl)
  have er : ridx_main_v14 (ix2 r e) k = ix2 k e := funext fun a => Fin.ext (by
    match a with
    | ⟨0, _⟩ => rfl
    | ⟨1, _⟩ => rfl)
  rw [el, er, val_main_v13_apply, deg_apply]
  rfl

/-- The joined row at coordinate `j`: the node's state below 32, the gathered row from 32 on. -/
theorem joined_apply (x0 : (⟨S16384x32, .f32⟩ : BufTy).Contents (Elt Ideal)) (x1 : (⟨S16384x16384, .f32⟩ : BufTy).Contents (Elt Ideal))
    (x2 : (⟨S32x128, .f32⟩ : BufTy).Contents (Elt Ideal)) (x3 : (⟨S128, .f32⟩ : BufTy).Contents (Elt Ideal))
    (x4 : (⟨S128x32, .f32⟩ : BufTy).Contents (Elt Ideal)) (x5 : (⟨S32, .f32⟩ : BufTy).Contents (Elt Ideal))
    (r : Fin 16384) (j : Fin 64) :
    val_main_v15 (F := Ideal) x0 x1 x2 x3 x4 x5 (ix2 r j)
      = GraphRow.joined (fun e => x0 (ix2 r e)) (fun e => val_main_v14 (F := Ideal) x0 x1 x2 x3 x4 x5 (ix2 r e)) j := by
  unfold val_main_v15 GraphRow.joined
  generalize val_main_v14 (F := Ideal) x0 x1 x2 x3 x4 x5 = y
  by_cases h : j.val < 32
  · rw [dif_pos h]
    exact concatenate_pair_apply_left (1 : Fin 2) x0 y concatenates_S16384x32_S16384x32_S16384x64_d1 (ix2 r j) rfl
      (ix2 r ⟨j.val, h⟩) (fun b => by
        match b with
        | ⟨0, _⟩ => rfl
        | ⟨1, _⟩ => rfl)
  · rw [dif_neg h]
    exact concatenate_pair_apply_right (1 : Fin 2) x0 y concatenates_S16384x32_S16384x32_S16384x64_d1 (ix2 r j) rfl rfl
      (ix2 r ⟨j.val - 32, by have := j.isLt; omega⟩) (fun b hb => by
        match b with
        | ⟨0, _⟩ => rfl
        | ⟨1, _⟩ => exact absurd rfl hb) (by show (j.val - 32) + 32 = j.val; omega)

/-- THE REFERENCE AT (r, d): node `r`'s update, the division taken before the sum, over the unopened messages. -/
theorem out_apply (x0 : (⟨S16384x32, .f32⟩ : BufTy).Contents (Elt Ideal)) (x1 : (⟨S16384x16384, .f32⟩ : BufTy).Contents (Elt Ideal))
    (x2 : (⟨S32x128, .f32⟩ : BufTy).Contents (Elt Ideal)) (x3 : (⟨S128, .f32⟩ : BufTy).Contents (Elt Ideal))
    (x4 : (⟨S128x32, .f32⟩ : BufTy).Contents (Elt Ideal)) (x5 : (⟨S32, .f32⟩ : BufTy).Contents (Elt Ideal))
    (x6 : (⟨S64x128, .f32⟩ : BufTy).Contents (Elt Ideal)) (x7 : (⟨S128, .f32⟩ : BufTy).Contents (Elt Ideal))
    (x8 : (⟨S128x32, .f32⟩ : BufTy).Contents (Elt Ideal)) (x9 : (⟨S32, .f32⟩ : BufTy).Contents (Elt Ideal))
    (r : Fin 16384) (d : Fin 32) :
    val_main_v24 (F := Ideal) x0 x1 x2 x3 x4 x5 x6 x7 x8 x9 (ix2 r d)
      = GraphRow.rowBefore (fun k => x1 (ix2 r k)) (fun k e => val_main_v8 (F := Ideal) x0 x2 x3 x4 x5 (ix2 k e))
          (fun e => x0 (ix2 r e)) (fun j q => x6 (ix2 j q)) (fun q => x7 (ix1 q)) (fun q e => x8 (ix2 q e))
          (fun e => x9 (ix1 e)) d := by
  unfold GraphRow.rowBefore GraphRow.update
  rw [val_main_v24_apply, val_main_v23_apply, val_main_v22_apply, val_main_v21_apply]
  have e9 : idx_main_v22 (idx_main_v23 (ix2 r d)) = ix1 d := funext fun a => Fin.ext (by
    match a with
    | ⟨0, _⟩ => rfl)
  rw [e9]
  simp only [Ideal.addf_def]
  refine congrArg (· + x9 (ix1 d)) (Finset.sum_congr rfl fun q _ => ?_)
  have el : lidx_main_v21 (ix2 r d) q = ix2 r q := funext fun a => Fin.ext (by
    match a with
    | ⟨0, _⟩ => rfl
    | ⟨1, _⟩ => rfl)
  have er : ridx_main_v21 (ix2 r d) q = ix2 q d := funext fun a => Fin.ext (by
    match a with
    | ⟨0, _⟩ => rfl
    | ⟨1, _⟩ => rfl)
  rw [el, er, val_main_v20_apply, val_main_call2_v0_apply, val_main_call2_cst_apply, val_main_v19_apply,
    val_main_v18_apply, val_main_v17_apply, val_main_v16_apply]
  have e7 : idx_main_v17 (idx_main_v18 (ix2 r q)) = ix1 q := funext fun a => Fin.ext (by
    match a with
    | ⟨0, _⟩ => rfl)
  rw [e7]
  simp only [Ideal.addf_def, Ideal.maximumf_def, Ideal.ofBits_def]
  refine congrArg (· * x8 (ix2 q d)) (congrArg (max · _) (congrArg (· + x7 (ix1 q)) (Finset.sum_congr rfl fun j _ => ?_)))
  have el' : lidx_main_v16 (ix2 r q) j = ix2 r j := funext fun a => Fin.ext (by
    match a with
    | ⟨0, _⟩ => rfl
    | ⟨1, _⟩ => rfl)
  have er' : ridx_main_v16 (ix2 r q) j = ix2 j q := funext fun a => Fin.ext (by
    match a with
    | ⟨0, _⟩ => rfl
    | ⟨1, _⟩ => rfl)
  rw [el', er', joined_apply]
  exact congrArg (fun g => GraphRow.joined (fun e => x0 (ix2 r e)) g j * x6 (ix2 j q))
    (funext fun e => agg_apply x0 x1 x2 x3 x4 x5 r e)

end Cert.ReferenceIdeal.RowValue

end
-- ==== Proof.LibRowwise.lean ====
/-
  Layout operations of row-wise kernels read at an index written by coordinates, over abstract extents, and a
  matrix product into a zero accumulator read as a plain sum.

  * a vector of `a` entries cast to a column `[a, 1]` reads, at `(i, u)`, the vector at `i`;
  * a column `[a, 1]` broadcast to `[a, b]` reads, at `(p, c)`, the column at `(p, 0)`: every entry of a row is the row's one value;
  * two arrays `[R, a]` and `[R, b]` joined along the second axis read, at `(r, j)`, the first at `(r, j)` when `j < a`
    and the second at `(r, j - a)` otherwise;
  * a product of an `[m, k]` by a `[k, n]` array contracting the first's columns with the second's rows, accumulated into
    zero, is `∑ⱼ A[p, j] · B[j, e]` at `(p, e)` on the extended reals.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibRowwise

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, row `p`'s one entry. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Two arrays joined along the second axis, read at `(r, j)`: the first below its width `a`, the second from `a` on. -/
theorem concatenate_cols_apply {R a b c : ℕ} (hc : c = a + b) (x : (⟨2, ![R, a]⟩ : Shape).Idx → α) (y : (⟨2, ![R, b]⟩ : Shape).Idx → α)
    (h : Shape.Concatenates [(⟨2, ![R, a]⟩ : Shape), ⟨2, ![R, b]⟩] ⟨2, ![R, c]⟩ (1 : Fin 2)) (r : Fin R) (j : Fin c) :
    concatenate ⟨2, ![R, c]⟩ (1 : Fin 2) [⟨⟨2, ![R, a]⟩, x⟩, ⟨⟨2, ![R, b]⟩, y⟩] h (ix2 r j)
      = if hj : j.val < a then x (ix2 r ⟨j.val, hj⟩) else y (ix2 r ⟨j.val - a, by have := j.isLt; omega⟩) := by
  by_cases hj : j.val < a
  · rw [dif_pos hj]
    exact concatenate_pair_apply_left (1 : Fin 2) x y h (ix2 r j) rfl (ix2 r ⟨j.val, hj⟩) (fun d => by
      match d with
      | ⟨0, _⟩ => rfl
      | ⟨1, _⟩ => rfl)
  · rw [dif_neg hj]
    exact concatenate_pair_apply_right (1 : Fin 2) x y h (ix2 r j) rfl rfl
      (ix2 r ⟨j.val - a, by have := j.isLt; omega⟩) (fun d hd => by
        match d with
        | ⟨0, _⟩ => rfl
        | ⟨1, _⟩ => exact absurd rfl hd) (by show (j.val - a) + a = j.val; omega)

/-- A matrix product of rows by columns into the zero accumulator, at `(p, e)`: the sum over the one contracted
    coordinate of `A[p, j] · B[j, e]`.  The four hypotheses say where the product's dimension numbers send an output
    index and a contraction index in each operand (rows of the first with its columns contracted against the rows of
    the second). -/
theorem matmul_zero_apply {m k n : ℕ} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (A : FVec Ideal ⟨2, ![m, k]⟩ .f32) (B : FVec Ideal ⟨2, ![k, n]⟩ .f32)
    (p : Fin m) (e : Fin n) :
    FloatOps.matmul D prec A B (constant ⟨2, ![m, n]⟩ .f32 0x00000000#32) (ix2 p e) = ∑ j : Fin k, A (ix2 p j) * B (ix2 j e) := by
  rw [Ideal.matmul_constant_zero_apply, ← Equiv.sum_comp (contrEquiv1 D k hr hs).symm]
  refine Finset.sum_congr rfl fun j _ => ?_
  have hk := contrEquiv1_symm_val D k hr hs j
  have el : D.lhsIdx (ix2 p e) ((contrEquiv1 D k hr hs).symm j) = ix2 p j := funext fun a => Fin.ext (by
    match a with
    | ⟨0, _⟩ => exact hl0 _ _
    | ⟨1, _⟩ => exact (hl1 _ _).trans hk)
  have er : D.rhsIdx (ix2 p e) ((contrEquiv1 D k hr hs).symm j) = ix2 j e := funext fun a => Fin.ext (by
    match a with
    | ⟨0, _⟩ => exact (hr0 _ _).trans hk
    | ⟨1, _⟩ => exact hr1 _ _)
  rw [el, er]

end Cert.LibRowwise

end
-- ==== Proof.KernelPayload.lean ====
/-
  What the kernel body stores at entry (p, d) of its 256-row output block, as a function of the blocks it loaded:
  row `p` of the adjacency block `A`, the whole messages array `Mv`, row `p` of the states block `Sb` and the four
  update weights give node `p`'s update with the degree division taken AFTER the weighted sum.  The body's operations
  are read one at a time at an index: the lane sum of row `p` and its keep-dims column, the three matrix products as
  plain sums over their one contracted coordinate, the join of the state row with the gathered row, and the two bias
  rows broadcast over the block's rows.
-/
import proofs.«153163_j47777216200866_2_alg».proof.Proof.Gen.KernelIdeal.Skeleton
import proofs.«153163_j47777216200866_2_alg».proof.Proof.RowLaw
import proofs.«153163_j47777216200866_2_alg».proof.Proof.LibRowwise
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.RowValue

open Cert.KernelIdeal Cert.KernelIdeal.Gen Idealize.ShloMosaic Idealize.ShloMosaic.ValueIdx

/-! ## Where each matrix product's dimension numbers send an output index and a contraction index -/

theorem lA0 (i : S256x32.Idx) (q : dot_S256x16384_S16384x32_S256x32_1_0_0_1_n_n.contr.Idx) : (dot_S256x16384_S16384x32_S256x32_1_0_0_1_n_n.lhsIdx i q 0).val = (i 0).val := by
  unfold DotDims.lhsIdx
  rw [dif_neg (show ¬(0 : Fin S256x16384.rank) ∈ dot_S256x16384_S16384x32_S256x32_1_0_0_1_n_n.lhsBatch by decide), dif_pos (show (0 : Fin S256x16384.rank) ∈ dot_S256x16384_S16384x32_S256x32_1_0_0_1_n_n.lhsNonContracting by decide)]
  rfl
theorem lA1 (i : S256x32.Idx) (q : dot_S256x16384_S16384x32_S256x32_1_0_0_1_n_n.contr.Idx) : (dot_S256x16384_S16384x32_S256x32_1_0_0_1_n_n.lhsIdx i q 1).val = (q ⟨0, by decide⟩).val :=
  dot_S256x16384_S16384x32_S256x32_1_0_0_1_n_n.lhsIdx_val_of_single rfl i q
theorem rA0 (i : S256x32.Idx) (q : dot_S256x16384_S16384x32_S256x32_1_0_0_1_n_n.contr.Idx) : (dot_S256x16384_S16384x32_S256x32_1_0_0_1_n_n.rhsIdx i q 0).val = (q ⟨0, by decide⟩).val :=
  dot_S256x16384_S16384x32_S256x32_1_0_0_1_n_n.rhsIdx_val_of_single rfl i q
theorem rA1 (i : S256x32.Idx) (q : dot_S256x16384_S16384x32_S256x32_1_0_0_1_n_n.contr.Idx) : (dot_S256x16384_S16384x32_S256x32_1_0_0_1_n_n.rhsIdx i q 1).val = (i 1).val := by
  unfold DotDims.rhsIdx
  rw [dif_neg (show ¬(1 : Fin S16384x32.rank) ∈ dot_S256x16384_S16384x32_S256x32_1_0_0_1_n_n.rhsBatch by decide), dif_pos (show (1 : Fin S16384x32.rank) ∈ dot_S256x16384_S16384x32_S256x32_1_0_0_1_n_n.rhsNonContracting by decide)]
  rfl

theorem lH0 (i : S256x128.Idx) (q : dot_S256x64_S64x128_S256x128_1_0_0_1_n_n.contr.Idx) : (dot_S256x64_S64x128_S256x128_1_0_0_1_n_n.lhsIdx i q 0).val = (i 0).val := by
  unfold DotDims.lhsIdx
  rw [dif_neg (show ¬(0 : Fin S256x64.rank) ∈ dot_S256x64_S64x128_S256x128_1_0_0_1_n_n.lhsBatch by decide), dif_pos (show (0 : Fin S256x64.rank) ∈ dot_S256x64_S64x128_S256x128_1_0_0_1_n_n.lhsNonContracting by decide)]
  rfl
theorem lH1 (i : S256x128.Idx) (q : dot_S256x64_S64x128_S256x128_1_0_0_1_n_n.contr.Idx) : (dot_S256x64_S64x128_S256x128_1_0_0_1_n_n.lhsIdx i q 1).val = (q ⟨0, by decide⟩).val :=
  dot_S256x64_S64x128_S256x128_1_0_0_1_n_n.lhsIdx_val_of_single rfl i q
theorem rH0 (i : S256x128.Idx) (q : dot_S256x64_S64x128_S256x128_1_0_0_1_n_n.contr.Idx) : (dot_S256x64_S64x128_S256x128_1_0_0_1_n_n.rhsIdx i q 0).val = (q ⟨0, by decide⟩).val :=
  dot_S256x64_S64x128_S256x128_1_0_0_1_n_n.rhsIdx_val_of_single rfl i q
theorem rH1 (i : S256x128.Idx) (q : dot_S256x64_S64x128_S256x128_1_0_0_1_n_n.contr.Idx) : (dot_S256x64_S64x128_S256x128_1_0_0_1_n_n.rhsIdx i q 1).val = (i 1).val := by
  unfold DotDims.rhsIdx
  rw [dif_neg (show ¬(1 : Fin S64x128.rank) ∈ dot_S256x64_S64x128_S256x128_1_0_0_1_n_n.rhsBatch by decide), dif_pos (show (1 : Fin S64x128.rank) ∈ dot_S256x64_S64x128_S256x128_1_0_0_1_n_n.rhsNonContracting by decide)]
  rfl

theorem lO0 (i : S256x32.Idx) (q : dot_S256x128_S128x32_S256x32_1_0_0_1_n_n.contr.Idx) : (dot_S256x128_S128x32_S256x32_1_0_0_1_n_n.lhsIdx i q 0).val = (i 0).val := by
  unfold DotDims.lhsIdx
  rw [dif_neg (show ¬(0 : Fin S256x128.rank) ∈ dot_S256x128_S128x32_S256x32_1_0_0_1_n_n.lhsBatch by decide), dif_pos (show (0 : Fin S256x128.rank) ∈ dot_S256x128_S128x32_S256x32_1_0_0_1_n_n.lhsNonContracting by decide)]
  rfl
theorem lO1 (i : S256x32.Idx) (q : dot_S256x128_S128x32_S256x32_1_0_0_1_n_n.contr.Idx) : (dot_S256x128_S128x32_S256x32_1_0_0_1_n_n.lhsIdx i q 1).val = (q ⟨0, by decide⟩).val :=
  dot_S256x128_S128x32_S256x32_1_0_0_1_n_n.lhsIdx_val_of_single rfl i q
theorem rO0 (i : S256x32.Idx) (q : dot_S256x128_S128x32_S256x32_1_0_0_1_n_n.contr.Idx) : (dot_S256x128_S128x32_S256x32_1_0_0_1_n_n.rhsIdx i q 0).val = (q ⟨0, by decide⟩).val :=
  dot_S256x128_S128x32_S256x32_1_0_0_1_n_n.rhsIdx_val_of_single rfl i q
theorem rO1 (i : S256x32.Idx) (q : dot_S256x128_S128x32_S256x32_1_0_0_1_n_n.contr.Idx) : (dot_S256x128_S128x32_S256x32_1_0_0_1_n_n.rhsIdx i q 1).val = (i 1).val := by
  unfold DotDims.rhsIdx
  rw [dif_neg (show ¬(1 : Fin S128x32.rank) ∈ dot_S256x128_S128x32_S256x32_1_0_0_1_n_n.rhsBatch by decide), dif_pos (show (1 : Fin S128x32.rank) ∈ dot_S256x128_S128x32_S256x32_1_0_0_1_n_n.rhsNonContracting by decide)]
  rfl

/-! ## The three matrix products at an index -/

/-- The adjacency block times the messages, at (p, e): `∑ₖ A[p, k] · B[k, e]`. -/
theorem mmA_apply (A : FVec Ideal S256x16384 .f32) (B : FVec Ideal S16384x32 .f32) (p : Fin 256) (e : Fin 32) :
    matmul (F := Ideal) dot_S256x16384_S16384x32_S256x32_1_0_0_1_n_n none A B (constant S256x32 .f32 0x00000000#32) (ix2 p e)
      = ∑ k : Fin 16384, A (ix2 p k) * B (ix2 k e) :=
  LibRowwise.matmul_zero_apply dot_S256x16384_S16384x32_S256x32_1_0_0_1_n_n rfl rfl lA0 lA1 rA0 rA1 none A B p e

/-- The joined rows times the first update weight, at (p, q). -/
theorem mmH_apply (Y : FVec Ideal S256x64 .f32) (W : FVec Ideal S64x128 .f32) (p : Fin 256) (q : Fin 128) :
    matmul (F := Ideal) dot_S256x64_S64x128_S256x128_1_0_0_1_n_n none Y W (constant S256x128 .f32 0x00000000#32) (ix2 p q)
      = ∑ j : Fin 64, Y (ix2 p j) * W (ix2 j q) :=
  LibRowwise.matmul_zero_apply dot_S256x64_S64x128_S256x128_1_0_0_1_n_n rfl rfl lH0 lH1 rH0 rH1 none Y W p q

/-- The hidden rows times the second update weight, at (p, d). -/
theorem mmO_apply (X : FVec Ideal S256x128 .f32) (W : FVec Ideal S128x32 .f32) (p : Fin 256) (d : Fin 32) :
    matmul (F := Ideal) dot_S256x128_S128x32_S256x32_1_0_0_1_n_n none X W (constant S256x32 .f32 0x00000000#32) (ix2 p d)
      = ∑ q : Fin 128, X (ix2 p q) * W (ix2 q d) :=
  LibRowwise.matmul_zero_apply dot_S256x128_S128x32_S256x32_1_0_0_1_n_n rfl rfl lO0 lO1 rO0 rO1 none X W p d

/-! ## The degree column, the gathered row, the join, the two layers -/

/-- The degree of row `p`, kept as a column and broadcast along the row: `max (∑ₖ A[p, k]) 1` at every (p, e). -/
theorem deg_apply (A : FVec Ideal S256x16384 .f32) (p : Fin 256) (e : Fin 32) :
    broadcastTo S256x32 (maximumf (shapeCast S256x1 (multiReduction (F := Ideal) .add [1] S256 A 0x00000000#32 reduces_S256x16384_S256 (.inl rfl) rfl) shapeCasts_S256_S256x1)
        (broadcast S256x1 (Scalar.ofBits (F := Ideal) .f32 0x3F800000#32))) broadcasts_S256x1_S256x32 (ix2 p e)
      = max (∑ k : Fin 16384, A (ix2 p k)) (Ideal.ofBits .f32 0x3F800000#32) := by
  refine (LibRowwise.broadcastTo_a1_ab_apply _ broadcasts_S256x1_S256x32 p e).trans ?_
  refine congrArg (max · (Ideal.ofBits .f32 0x3F800000#32)) ?_
  refine (LibRowwise.shapeCast_a_a1_apply _ shapeCasts_S256_S256x1 p 0).trans ?_
  refine (Ideal.multiReduction_add_single A 0x00000000#32 reduces_S256x16384_S256 (.inl rfl) rfl (ix1 p)).trans ?_
  refine Finset.sum_congr rfl fun k _ => congrArg A ?_
  funext a; apply Fin.ext
  match a with
  | ⟨0, _⟩ => rfl
  | ⟨1, _⟩ => rfl

/-- The gathered row of node `p` at feature `e`: the weighted sum of the messages divided by the degree. -/
theorem agg_apply (A : FVec Ideal S256x16384 .f32) (Mv : FVec Ideal S16384x32 .f32) (p : Fin 256) (e : Fin 32) :
    divf (matmul (F := Ideal) dot_S256x16384_S16384x32_S256x32_1_0_0_1_n_n none A (shapeCast S16384x32 Mv shapeCasts_S16384x32_S16384x32) (constant S256x32 .f32 0x00000000#32))
        (broadcastTo S256x32 (maximumf (shapeCast S256x1 (multiReduction (F := Ideal) .add [1] S256 A 0x00000000#32 reduces_S256x16384_S256 (.inl rfl) rfl) shapeCasts_S256_S256x1)
          (broadcast S256x1 (Scalar.ofBits (F := Ideal) .f32 0x3F800000#32))) broadcasts_S256x1_S256x32) (ix2 p e)
      = GraphRow.aggAfter (fun k => A (ix2 p k)) (fun k => Mv (ix2 k e)) := by
  unfold GraphRow.aggAfter
  rw [shapeCast_self]
  refine (divf_apply _ _ (ix2 p e)).trans ?_
  rw [mmA_apply, deg_apply]

/-- The state row joined with the gathered row, at coordinate `j`. -/
theorem join_apply (Sb G : FVec Ideal S256x32 .f32) (p : Fin 256) (j : Fin 64) :
    concatenate S256x64 1 [⟨S256x32, Sb⟩, ⟨S256x32, G⟩] concatenates_S256x32_S256x32_S256x64_d1 (ix2 p j)
      = GraphRow.joined (fun e => Sb (ix2 p e)) (fun e => G (ix2 p e)) j :=
  LibRowwise.concatenate_cols_apply (R := 256) (a := 32) (b := 32) (c := 64) rfl Sb G concatenates_S256x32_S256x32_S256x64_d1 p j

/-- A bias vector of 128 entries laid along the rows of a [256, 128] block reads its entry `q` at (p, q). -/
theorem bias128_apply (b : FVec Ideal S128 .f32) (p : Fin 256) (q : Fin 128) :
    broadcastTo S256x128 (shapeCast S1x128 b shapeCasts_S128_S1x128) broadcasts_S1x128_S256x128 (ix2 p q) = b (ix1 q) :=
  (broadcastTo_1b_ab_apply _ broadcasts_S1x128_S256x128 p q).trans (shapeCast_a_1a_apply b shapeCasts_S128_S1x128 0 q)

/-- A bias vector of 32 entries laid along the rows of a [256, 32] block reads its entry `d` at (p, d). -/
theorem bias32_apply (b : FVec Ideal S32 .f32) (p : Fin 256) (d : Fin 32) :
    broadcastTo S256x32 (shapeCast S1x32 b shapeCasts_S32_S1x32) broadcasts_S1x32_S256x32 (ix2 p d) = b (ix1 d) :=
  (broadcastTo_1b_ab_apply _ broadcasts_S1x32_S256x32 p d).trans (shapeCast_a_1a_apply b shapeCasts_S32_S1x32 0 d)

/-- The hidden layer at (p, q): `max (∑ⱼ Y[p, j] · W₁[j, q] + b₁[q]) 0`. -/
theorem hidden_apply (Y : FVec Ideal S256x64 .f32) (W1 : FVec Ideal S64x128 .f32) (b1 : FVec Ideal S128 .f32) (p : Fin 256) (q : Fin 128) :
    maximumf (addf (matmul (F := Ideal) dot_S256x64_S64x128_S256x128_1_0_0_1_n_n none Y W1 (constant S256x128 .f32 0x00000000#32))
        (broadcastTo S256x128 (shapeCast S1x128 b1 shapeCasts_S128_S1x128) broadcasts_S1x128_S256x128))
      (broadcast S256x128 (Scalar.ofBits (F := Ideal) .f32 0x00000000#32)) (ix2 p q)
      = max ((∑ j : Fin 64, Y (ix2 p j) * W1 (ix2 j q)) + b1 (ix1 q)) (Ideal.ofBits .f32 0x00000000#32) :=
  congrArg (max · (Ideal.ofBits .f32 0x00000000#32)) (congrArg₂ (· + ·) (mmH_apply Y W1 p q) (bias128_apply b1 p q))

/-- The output layer at (p, d): `∑_q X[p, q] · W₂[q, d] + b₂[d]`. -/
theorem output_apply (X : FVec Ideal S256x128 .f32) (W2 : FVec Ideal S128x32 .f32) (b2 : FVec Ideal S32 .f32) (p : Fin 256) (d : Fin 32) :
    addf (matmul (F := Ideal) dot_S256x128_S128x32_S256x32_1_0_0_1_n_n none X W2 (constant S256x32 .f32 0x00000000#32))
      (broadcastTo S256x32 (shapeCast S1x32 b2 shapeCasts_S32_S1x32) broadcasts_S1x32_S256x32) (ix2 p d)
      = (∑ q : Fin 128, X (ix2 p q) * W2 (ix2 q d)) + b2 (ix1 d) :=
  congrArg₂ (· + ·) (mmO_apply X W2 p d) (bias32_apply b2 p d)

/-! ## The stored value -/

/-- THE BODY'S STORE AT (p, d): node `p`'s update, the division taken after the sum. -/
theorem pay_apply (A : Vec Ideal S256x16384 .f32) (Mv : Vec Ideal S16384x32 .f32) (Sb : Vec Ideal S256x32 .f32)
    (W1 : Vec Ideal S64x128 .f32) (b1 : Vec Ideal S128 .f32) (W2 : Vec Ideal S128x32 .f32) (b2 : Vec Ideal S32 .f32)
    (p : Fin 256) (d : Fin 32) :
    k0_pay1 (F := Ideal) A Mv Sb W1 b1 W2 b2 (ix2 p d)
      = GraphRow.rowAfter (fun k => A (ix2 p k)) (fun k e => Mv (ix2 k e)) (fun e => Sb (ix2 p e))
          (fun j q => W1 (ix2 j q)) (fun q => b1 (ix1 q)) (fun q e => W2 (ix2 q e)) (fun e => b2 (ix1 e)) d := by
  unfold k0_pay1 GraphRow.rowAfter GraphRow.update
  dsimp only
  refine (output_apply _ W2 b2 p d).trans ?_
  refine congrArg (· + b2 (ix1 d)) (Finset.sum_congr rfl fun q _ => congrArg (· * W2 (ix2 q d)) ?_)
  refine (hidden_apply _ W1 b1 p q).trans ?_
  refine congrArg (max · (Ideal.ofBits .f32 0x00000000#32)) (congrArg (· + b1 (ix1 q)) (Finset.sum_congr rfl fun j _ => congrArg (· * W1 (ix2 j q)) ?_))
  refine (join_apply Sb _ p j).trans ?_
  exact congrArg (fun g => GraphRow.joined (fun e => Sb (ix2 p e)) g j) (funext fun e => agg_apply A Mv p e)

end Cert.KernelIdeal.RowValue

end
-- ==== Proof.ArraySpec.lean ====
/-
  The whole result array of node updates, index by index, as a function of the argument arrays and of the messages
  array: entry (r, d) is node `r`'s update at feature `d`, from row `r` of the adjacency matrix, the messages,
  row `r` of the states and the update weights.  Two spellings, the degree division after the weighted sum and
  before it; they are one array when every adjacency entry is a real number.
-/
import proofs.«153163_j47777216200866_2_alg».proof.Proof.RowLaw
import Idealize.ShloMosaic.Lib.ValueIdx

noncomputable section

open scoped BigOperators

namespace Cert.GraphRow

open Idealize.ShloMosaic Idealize.ShloMosaic.ValueIdx

/-- The updates of all nodes, the division taken after the sum. -/
def updatesAfter (x0 : (⟨2, ![16384, 32]⟩ : Shape).Idx → EReal) (x1 : (⟨2, ![16384, 16384]⟩ : Shape).Idx → EReal)
    (M : (⟨2, ![16384, 32]⟩ : Shape).Idx → EReal) (x6 : (⟨2, ![64, 128]⟩ : Shape).Idx → EReal)
    (x7 : (⟨1, ![128]⟩ : Shape).Idx → EReal) (x8 : (⟨2, ![128, 32]⟩ : Shape).Idx → EReal)
    (x9 : (⟨1, ![32]⟩ : Shape).Idx → EReal) : (⟨2, ![16384, 32]⟩ : Shape).Idx → EReal := fun i =>
  rowAfter (fun k => x1 (ix2 (⟨(i 0).val, idx2_lt0 i⟩ : Fin 16384) k)) (fun k e => M (ix2 k e))
    (fun e => x0 (ix2 (⟨(i 0).val, idx2_lt0 i⟩ : Fin 16384) e)) (fun j q => x6 (ix2 j q)) (fun q => x7 (ix1 q))
    (fun q e => x8 (ix2 q e)) (fun e => x9 (ix1 e)) (⟨(i 1).val, idx2_lt1 i⟩ : Fin 32)

/-- The same, the division taken before the sum. -/
def updatesBefore (x0 : (⟨2, ![16384, 32]⟩ : Shape).Idx → EReal) (x1 : (⟨2, ![16384, 16384]⟩ : Shape).Idx → EReal)
    (M : (⟨2, ![16384, 32]⟩ : Shape).Idx → EReal) (x6 : (⟨2, ![64, 128]⟩ : Shape).Idx → EReal)
    (x7 : (⟨1, ![128]⟩ : Shape).Idx → EReal) (x8 : (⟨2, ![128, 32]⟩ : Shape).Idx → EReal)
    (x9 : (⟨1, ![32]⟩ : Shape).Idx → EReal) : (⟨2, ![16384, 32]⟩ : Shape).Idx → EReal := fun i =>
  rowBefore (fun k => x1 (ix2 (⟨(i 0).val, idx2_lt0 i⟩ : Fin 16384) k)) (fun k e => M (ix2 k e))
    (fun e => x0 (ix2 (⟨(i 0).val, idx2_lt0 i⟩ : Fin 16384) e)) (fun j q => x6 (ix2 j q)) (fun q => x7 (ix1 q))
    (fun q e => x8 (ix2 q e)) (fun e => x9 (ix1 e)) (⟨(i 1).val, idx2_lt1 i⟩ : Fin 32)

/-- Entry (r, d) of the first is row `r`'s update at `d`. -/
theorem updatesAfter_apply (x0 : (⟨2, ![16384, 32]⟩ : Shape).Idx → EReal) (x1 : (⟨2, ![16384, 16384]⟩ : Shape).Idx → EReal)
    (M : (⟨2, ![16384, 32]⟩ : Shape).Idx → EReal) (x6 : (⟨2, ![64, 128]⟩ : Shape).Idx → EReal)
    (x7 : (⟨1, ![128]⟩ : Shape).Idx → EReal) (x8 : (⟨2, ![128, 32]⟩ : Shape).Idx → EReal)
    (x9 : (⟨1, ![32]⟩ : Shape).Idx → EReal) (r : Fin 16384) (d : Fin 32) :
    updatesAfter x0 x1 M x6 x7 x8 x9 (ix2 r d)
      = rowAfter (fun k => x1 (ix2 r k)) (fun k e => M (ix2 k e)) (fun e => x0 (ix2 r e)) (fun j q => x6 (ix2 j q))
          (fun q => x7 (ix1 q)) (fun q e => x8 (ix2 q e)) (fun e => x9 (ix1 e)) d := rfl

/-- Entry (r, d) of the second likewise. -/
theorem updatesBefore_apply (x0 : (⟨2, ![16384, 32]⟩ : Shape).Idx → EReal) (x1 : (⟨2, ![16384, 16384]⟩ : Shape).Idx → EReal)
    (M : (⟨2, ![16384, 32]⟩ : Shape).Idx → EReal) (x6 : (⟨2, ![64, 128]⟩ : Shape).Idx → EReal)
    (x7 : (⟨1, ![128]⟩ : Shape).Idx → EReal) (x8 : (⟨2, ![128, 32]⟩ : Shape).Idx → EReal)
    (x9 : (⟨1, ![32]⟩ : Shape).Idx → EReal) (r : Fin 16384) (d : Fin 32) :
    updatesBefore x0 x1 M x6 x7 x8 x9 (ix2 r d)
      = rowBefore (fun k => x1 (ix2 r k)) (fun k e => M (ix2 k e)) (fun e => x0 (ix2 r e)) (fun j q => x6 (ix2 j q))
          (fun q => x7 (ix1 q)) (fun q e => x8 (ix2 q e)) (fun e => x9 (ix1 e)) d := rfl

/-- With every adjacency entry a real number the two arrays are equal. -/
theorem updatesAfter_eq_updatesBefore (x0 : (⟨2, ![16384, 32]⟩ : Shape).Idx → EReal) (x1 : (⟨2, ![16384, 16384]⟩ : Shape).Idx → EReal)
    (M : (⟨2, ![16384, 32]⟩ : Shape).Idx → EReal) (x6 : (⟨2, ![64, 128]⟩ : Shape).Idx → EReal)
    (x7 : (⟨1, ![128]⟩ : Shape).Idx → EReal) (x8 : (⟨2, ![128, 32]⟩ : Shape).Idx → EReal)
    (x9 : (⟨1, ![32]⟩ : Shape).Idx → EReal) (h1 : ∀ i, ∃ r : ℝ, x1 i = (r : EReal)) :
    updatesAfter x0 x1 M x6 x7 x8 x9 = updatesBefore x0 x1 M x6 x7 x8 x9 :=
  funext fun i => rowAfter_eq_rowBefore _ _ _ _ _ _ _ _ fun k => h1 _

/-- The row function respects equality of each of its arguments. -/
theorem rowAfter_congr {a a' : Fin 16384 → EReal} {M M' : Fin 16384 → Fin 32 → EReal} {s s' : Fin 32 → EReal}
    {W1 W1' : Fin 64 → Fin 128 → EReal} {b1 b1' : Fin 128 → EReal} {W2 W2' : Fin 128 → Fin 32 → EReal}
    {b2 b2' : Fin 32 → EReal} (d : Fin 32) (ha : a = a') (hM : M = M') (hs : s = s') (hW1 : W1 = W1') (hb1 : b1 = b1')
    (hW2 : W2 = W2') (hb2 : b2 = b2') :
    rowAfter a M s W1 b1 W2 b2 d = rowAfter a' M' s' W1' b1' W2' b2' d := by
  subst ha hM hs hW1 hb1 hW2 hb2; rfl

end Cert.GraphRow

end
-- ==== Proof.KernelArray.lean ====
/-
  The kernel's result array after the run, as one function of the argument arrays.

  Grid point `t` (of 64) handles rows `256·t … 256·t + 255`: it is handed those rows of the adjacency matrix and of the
  states, and the whole of the messages and of the four update weights, and writes back those rows of the result.
  Entry (p, d) of what point `t` writes back is therefore entry (256·t + p, d) of the array of node updates, the
  division taken after the sum; row `r` lies in the block of point `r / 256`, so the blocks cover the array and it
  ends holding that array everywhere.  The messages the region finds are the host operations' term of the
  arguments, the same term the reference computes.
-/
import proofs.«153163_j47777216200866_2_alg».proof.Proof.Gen.KernelIdeal.Value
import proofs.«153163_j47777216200866_2_alg».proof.Proof.Gen.ReferenceIdeal.Read
import proofs.«153163_j47777216200866_2_alg».proof.Proof.KernelPayload
import proofs.«153163_j47777216200866_2_alg».proof.Proof.ArraySpec
import Idealize.ShloMosaic.Lib.Pipeline.Value
import Idealize.ShloMosaic.Lib.StableHlo.Run
import Idealize.ShloMosaic.Lib.ValueIdx

noncomputable section

open scoped BigOperators

namespace Cert.KernelIdeal.ArrayValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The messages as the region finds them -/

/-- The messages array at region entry is the message perceptron of the arguments — spelt as the reference's stage. -/
theorem msgs_eq (c : Dev nD) :
    (V m c main_v8 : S16384x32.Idx → EReal)
      = Cert.ReferenceIdeal.Read.val_main_v8 (F := Ideal) (m ((c : Thread nD τ).loc main_arg0)) (m ((c : Thread nD τ).loc main_arg2))
          (m ((c : Thread nD τ).loc main_arg3)) (m ((c : Thread nD τ).loc main_arg4)) (m ((c : Thread nD τ).loc main_arg5)) := by
  dsimp only [V]
  simp only [hostOps0, hostOps0_1, hostOps0_2, List.flatten_cons, List.flatten_nil, List.append_nil, List.cons_append,
    List.nil_append]
  after_results
  rfl

/-! ## The result array, and the windows' blocks at a point -/

/-- The array of node updates of the arrays the region finds, the division taken after the sum. -/
abbrev G (c : Dev nD) : S16384x32.Idx → EReal :=
  GraphRow.updatesAfter (V m c main_arg0) (V m c main_arg1) (V m c main_v8) (V m c main_arg6) (V m c main_arg7)
    (V m c main_arg8) (V m c main_arg9)

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the grid: the adjacency, states and result windows sit at block row `t`,
    every other window at its one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

/-- Row `p` of the adjacency block at point `t` is row `256·t + p` of the matrix. -/
theorem adj_blk (c : Dev nD) (t : Fin cfg0.N) (p : Fin 256) (k : Fin 16384) (r : Fin 16384) (hr : r.val = 256 * t.val + p.val) :
    (iblk m c 0 t : Vec Ideal S256x16384 .f32) (ix2 p k) = V m c main_arg1 (ix2 r k) := by
  show V m c main_arg1 (((cfg0.win 0).blk t).view.emb (ix2 p k)) = _
  refine congrArg (V m c main_arg1) ?_
  obtain ⟨e00, e01, -⟩ := idx_facts t
  funext a; apply Fin.ext
  match a with
  | ⟨0, _⟩ => show win0_0.index t (0 : Fin 2) * 256 + 1 * p.val = r.val; omega
  | ⟨1, _⟩ => show win0_0.index t (1 : Fin 2) * 16384 + 1 * k.val = k.val; omega

/-- The messages block at any point is the whole messages array. -/
theorem msg_blk (c : Dev nD) (t : Fin cfg0.N) (k : Fin 16384) (e : Fin 32) :
    (iblk m c 1 t : Vec Ideal S16384x32 .f32) (ix2 k e) = V m c main_v8 (ix2 k e) := by
  show V m c main_v8 (((cfg0.win 1).blk t).view.emb (ix2 k e)) = _
  refine congrArg (V m c main_v8) ?_
  obtain ⟨-, -, e10, e11, -⟩ := idx_facts t
  funext a; apply Fin.ext
  match a with
  | ⟨0, _⟩ => show win0_1.index t (0 : Fin 2) * 16384 + 1 * k.val = k.val; omega
  | ⟨1, _⟩ => show win0_1.index t (1 : Fin 2) * 32 + 1 * e.val = e.val; omega

/-- Row `p` of the states block at point `t` is row `256·t + p` of the states. -/
theorem st_blk (c : Dev nD) (t : Fin cfg0.N) (p : Fin 256) (e : Fin 32) (r : Fin 16384) (hr : r.val = 256 * t.val + p.val) :
    (iblk m c 2 t : Vec Ideal S256x32 .f32) (ix2 p e) = V m c main_arg0 (ix2 r e) := by
  show V m c main_arg0 (((cfg0.win 2).blk t).view.emb (ix2 p e)) = _
  refine congrArg (V m c main_arg0) ?_
  obtain ⟨-, -, -, -, e20, e21, -⟩ := idx_facts t
  funext a; apply Fin.ext
  match a with
  | ⟨0, _⟩ => show win0_2.index t (0 : Fin 2) * 256 + 1 * p.val = r.val; omega
  | ⟨1, _⟩ => show win0_2.index t (1 : Fin 2) * 32 + 1 * e.val = e.val; omega

/-- The first update weight's block is the whole weight. -/
theorem w1_blk (c : Dev nD) (t : Fin cfg0.N) (j : Fin 64) (q : Fin 128) :
    (iblk m c 3 t : Vec Ideal S64x128 .f32) (ix2 j q) = V m c main_arg6 (ix2 j q) := by
  show V m c main_arg6 (((cfg0.win 3).blk t).view.emb (ix2 j q)) = _
  refine congrArg (V m c main_arg6) ?_
  obtain ⟨-, -, -, -, -, -, e30, e31, -⟩ := idx_facts t
  funext a; apply Fin.ext
  match a with
  | ⟨0, _⟩ => show win0_3.index t (0 : Fin 2) * 64 + 1 * j.val = j.val; omega
  | ⟨1, _⟩ => show win0_3.index t (1 : Fin 2) * 128 + 1 * q.val = q.val; omega

/-- The first update bias's block is the whole bias. -/
theorem b1_blk (c : Dev nD) (t : Fin cfg0.N) (q : Fin 128) :
    (iblk m c 4 t : Vec Ideal S128 .f32) (ix1 q) = V m c main_arg7 (ix1 q) := by
  show V m c main_arg7 (((cfg0.win 4).blk t).view.emb (ix1 q)) = _
  refine congrArg (V m c main_arg7) ?_
  obtain ⟨-, -, -, -, -, -, -, -, e40, -⟩ := idx_facts t
  funext a; apply Fin.ext
  match a with
  | ⟨0, _⟩ => show win0_4.index t (0 : Fin 1) * 128 + 1 * q.val = q.val; omega

/-- The second update weight's block is the whole weight. -/
theorem w2_blk (c : Dev nD) (t : Fin cfg0.N) (q : Fin 128) (e : Fin 32) :
    (iblk m c 5 t : Vec Ideal S128x32 .f32) (ix2 q e) = V m c main_arg8 (ix2 q e) := by
  show V m c main_arg8 (((cfg0.win 5).blk t).view.emb (ix2 q e)) = _
  refine congrArg (V m c main_arg8) ?_
  obtain ⟨-, -, -, -, -, -, -, -, -, e50, e51, -⟩ := idx_facts t
  funext a; apply Fin.ext
  match a with
  | ⟨0, _⟩ => show win0_5.index t (0 : Fin 2) * 128 + 1 * q.val = q.val; omega
  | ⟨1, _⟩ => show win0_5.index t (1 : Fin 2) * 32 + 1 * e.val = e.val; omega

/-- The second update bias's block is the whole bias. -/
theorem b2_blk (c : Dev nD) (t : Fin cfg0.N) (e : Fin 32) :
    (iblk m c 6 t : Vec Ideal S32 .f32) (ix1 e) = V m c main_arg9 (ix1 e) := by
  show V m c main_arg9 (((cfg0.win 6).blk t).view.emb (ix1 e)) = _
  refine congrArg (V m c main_arg9) ?_
  obtain ⟨-, -, -, -, -, -, -, -, -, -, -, e60, -⟩ := idx_facts t
  funext a; apply Fin.ext
  match a with
  | ⟨0, _⟩ => show win0_6.index t (0 : Fin 1) * 32 + 1 * e.val = e.val; omega

/-! ## What a point writes back -/

/-- Entry (p, d) of what the body stores at point `t` is entry (256·t + p, d) of the array of updates. -/
theorem point_eq (c : Dev nD) (t : Fin cfg0.N) (p : Fin 256) (d : Fin 32) :
    k0_pay1 (F := Ideal) (iblk m c 0 t) (iblk m c 1 t) (iblk m c 2 t) (iblk m c 3 t) (iblk m c 4 t) (iblk m c 5 t) (iblk m c 6 t) (ix2 p d)
      = G m c (((cfg0.win 7).blk t).view.emb (ix2 p d)) := by
  have hN : cfg0.N = 64 := N_0
  have ht : t.val < 64 := hN ▸ t.isLt
  have hp : p.val < 256 := p.isLt
  obtain ⟨-, -, -, -, -, -, -, -, -, -, -, -, e70, e71⟩ := idx_facts t
  have hemb : ((cfg0.win 7).blk t).view.emb (ix2 p d) = ix2 (⟨256 * t.val + p.val, by omega⟩ : Fin 16384) d := by
    funext a; apply Fin.ext
    match a with
    | ⟨0, _⟩ => show win0_7.index t (0 : Fin 2) * 256 + 1 * p.val = 256 * t.val + p.val; omega
    | ⟨1, _⟩ => show win0_7.index t (1 : Fin 2) * 32 + 1 * d.val = d.val; omega
  rw [hemb]
  refine Eq.trans ?_ (GraphRow.updatesAfter_apply (V m c main_arg0) (V m c main_arg1) (V m c main_v8) (V m c main_arg6)
    (V m c main_arg7) (V m c main_arg8) (V m c main_arg9) ⟨256 * t.val + p.val, by omega⟩ d).symm
  refine (RowValue.pay_apply _ _ _ _ _ _ _ p d).trans (GraphRow.rowAfter_congr d ?_ ?_ ?_ ?_ ?_ ?_ ?_)
  · exact funext fun k => adj_blk m c t p k _ rfl
  · exact funext fun k => funext fun e => msg_blk m c t k e
  · exact funext fun e => st_blk m c t p e _ rfl
  · exact funext fun j => funext fun q => w1_blk m c t j q
  · exact funext fun q => b1_blk m c t q
  · exact funext fun q => funext fun e => w2_blk m c t q e
  · exact funext fun e => b2_blk m c t e

/-- WHAT POINT `t` WRITES BACK is block `t` of the array of updates. -/
theorem flushed_eq (c : Dev nD) (t : Fin cfg0.N) :
    (dats m 0 c).flushed 7 t = ((cfg0.win 7).blk t).view.read (Elt Ideal) (G m c) := by
  rw [Value.flushed7]
  unfold out0_7
  rw [View.canon_unit_zero hz2]
  simp only [View.ld_unit_zero (S := S256x16384) hz2, View.ld_unit_zero (S := S16384x32) hz2, View.ld_unit_zero (S := S256x32) hz2,
    View.ld_unit_zero (S := S64x128) hz2, View.ld_unit_zero (S := S128) hz1, View.ld_unit_zero (S := S128x32) hz2,
    View.ld_unit_zero (S := S32) hz1]
  funext y
  obtain ⟨p, d, rfl⟩ : ∃ (p : Fin 256) (d : Fin 32), y = ix2 p d := ⟨y 0, y 1, eq_ix2 y⟩
  exact point_eq m c t p d

/-! ## The cover, the array, the run -/

/-- An index of the array is in point `t`'s block iff each coordinate is in the block's range on its axis. -/
theorem mem_blk (t : Fin cfg0.N) (i : S16384x32.Idx) :
    i ∈ ((cfg0.win 7).blk t).view.set ↔ ∀ a : Fin 2, win0_7.index t a * S256x32.size a ≤ (i a).val ∧ (i a).val < win0_7.index t a * S256x32.size a + S256x32.size a := by
  show i ∈ ((View.whole main_v9).slice (win0_7.rect t)).set ↔ _
  rw [View.set_slice_whole, Rect.mem_set_unit]
  exact Iff.rfl

/-- Row `r` lies in the block of point `r / 256`: the blocks cover the array. -/
theorem cover (i : S16384x32.Idx) : ∃ t : Fin cfg0.N, (cfg0.win 7).flush t = true ∧ i ∈ ((cfg0.win 7).blk t).view.set := by
  have hi0 : (i 0).val < 16384 := (i 0).isLt
  have hi1 : (i 1).val < 32 := (i 1).isLt
  have hN : cfg0.N = 64 := N_0
  have hlt : (i 0).val / 256 < cfg0.N := by rw [hN]; omega
  refine ⟨⟨(i 0).val / 256, hlt⟩, flush0_7 _, ?_⟩
  rw [mem_blk]
  obtain ⟨-, -, -, -, -, -, -, -, -, -, -, -, e70, e71⟩ := idx_facts ⟨(i 0).val / 256, hlt⟩
  have e70' : win0_7.index ⟨(i 0).val / 256, hlt⟩ (0 : Fin 2) = (i 0).val / 256 := e70
  intro a
  match a with
  | ⟨0, _⟩ =>
    show win0_7.index ⟨(i 0).val / 256, hlt⟩ (0 : Fin 2) * 256 ≤ (i 0).val ∧ (i 0).val < win0_7.index ⟨(i 0).val / 256, hlt⟩ (0 : Fin 2) * 256 + 256
    rw [e70']; omega
  | ⟨1, _⟩ =>
    show win0_7.index ⟨(i 0).val / 256, hlt⟩ (1 : Fin 2) * 32 ≤ (i 1).val ∧ (i 1).val < win0_7.index ⟨(i 0).val / 256, hlt⟩ (1 : Fin 2) * 32 + 32
    rw [e71]; omega

/-- THE ARRAY after the run is the array of updates of what the region found. -/
theorem final (c : Dev nD) : (dats m 0 c).arrAt 7 cfg0.N = G m c :=
  (dats m 0 c).arrAt_eq_of_cover 7 (G m c) (fun t _ => flushed_eq m c t) cover

/-- The array of updates of the ARGUMENTS, the messages spelt as the reference's stage. -/
abbrev result (c : Dev nD) : S16384x32.Idx → EReal :=
  GraphRow.updatesAfter (m ((c : Thread nD τ).loc main_arg0)) (m ((c : Thread nD τ).loc main_arg1))
    (Cert.ReferenceIdeal.Read.val_main_v8 (F := Ideal) (m ((c : Thread nD τ).loc main_arg0)) (m ((c : Thread nD τ).loc main_arg2))
      (m ((c : Thread nD τ).loc main_arg3)) (m ((c : Thread nD τ).loc main_arg4)) (m ((c : Thread nD τ).loc main_arg5)))
    (m ((c : Thread nD τ).loc main_arg6)) (m ((c : Thread nD τ).loc main_arg7)) (m ((c : Thread nD τ).loc main_arg8))
    (m ((c : Thread nD τ).loc main_arg9))

/-- What the region finds of the arguments is the arguments. -/
theorem G_eq (c : Dev nD) : G m c = result m c := by
  unfold G result
  rw [V_main_arg0, V_main_arg1, V_main_arg6, V_main_arg7, V_main_arg8, V_main_arg9, msgs_eq]

/-- The frame run re-posted: the result array at the array of updates of the arguments, the arguments unchanged. -/
theorem run : θ_run defs (onTc (τ := τ) (main (F := Ideal))) ⟨m, fun _ => 0, ρ⟩ fun r => ∀ c : Dev nD,
      r.2.mem ((c : Thread nD τ).loc main_v9) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans ((final m c).trans (G_eq m c)), (h c).2⟩)
    (Cert.KernelIdeal.Value.run_blocks m ρ)

end Cert.KernelIdeal.ArrayValue

end
-- ==== Proof.Finite.lean ====
/-
  The precondition read back: where `finite_inputs` holds, every entry of the adjacency matrix is a real number.
  The predicate is a conjunction of one `all |x| < +∞` per input; the adjacency matrix's conjunct is the second,
  under eight further conjunctions.  An extended real whose absolute value `max x (-x)` is below `+∞` is neither
  infinity.
-/
import proofs.«153163_j47777216200866_2_alg».proof.Pre_finite_inputs
import proofs.«153163_j47777216200866_2_alg».proof.Proof.Gen.Pre_finite_inputs
import Idealize.ShloMosaic.PureOps.Ideal
import Idealize.ShloMosaic.Lib.ValueIdx
import Idealize.ShloMosaic.Lib.ReduceAll

noncomputable section

namespace Cert.Pre_finite_inputs.Finite

open Cert.Pre_finite_inputs Idealize.ShloMosaic

instance : Subsingleton S_.Idx := ⟨fun a b => funext fun d => d.elim0⟩

/-- The float word `0x7F800000` denotes `+∞`. -/
theorem inf_word : Ideal.ofBits .f32 0x7F800000#32 = (⊤ : EReal) := by
  simp [Ideal.ofBits, Ideal.ieee]

/-- An extended real with `max x (-x) < +∞` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- Under the precondition every adjacency entry is a real number. -/
theorem adj_real (x0 : FVec Ideal S16384x32 .f32) (x1 : FVec Ideal S16384x16384 .f32) (x2 : FVec Ideal S32x128 .f32)
    (x3 : FVec Ideal S128 .f32) (x4 : FVec Ideal S128x32 .f32) (x5 : FVec Ideal S32 .f32) (x6 : FVec Ideal S64x128 .f32)
    (x7 : FVec Ideal S128 .f32) (x8 : FVec Ideal S128x32 .f32) (x9 : FVec Ideal S32 .f32)
    (h : fn (F := Ideal) x0 x1 x2 x3 x4 x5 x6 x7 x8 x9 = fun _ => 1#1) (i : S16384x16384.Idx) :
    ∃ r : ℝ, x1 i = (r : EReal) := by
  have h0 := congrFun h ValueIdx.ix0
  dsimp only [fn, fn_part1, fn_part2] at h0
  have a1 := (IntOp.andi_eq_one.1 h0).1
  have a2 := (IntOp.andi_eq_one.1 a1).1
  have a3 := (IntOp.andi_eq_one.1 a2).1
  have a4 := (IntOp.andi_eq_one.1 a3).1
  have a5 := (IntOp.andi_eq_one.1 a4).1
  have a6 := (IntOp.andi_eq_one.1 a5).1
  have a7 := (IntOp.andi_eq_one.1 a6).1
  have a8 := (IntOp.andi_eq_one.1 a7).1
  have a9 := (IntOp.andi_eq_one.1 a8).2
  have e := Host.reduce_andi_all _ _ _ _ ValueIdx.ix0 a9 i
  have e' : Ideal.cmp .olt (max (x1 i) (-(x1 i))) (Ideal.ofBits .f32 0x7F800000#32) = 1#1 := e
  rw [inf_word] at e'
  refine real_of_abs_lt_top (x1 i) ?_
  by_contra hn
  simp [Ideal.cmp, hn] at e'

end Cert.Pre_finite_inputs.Finite

end
-- ==== Proof.lean ====
/-
  Graph message passing with degree-normalised aggregation: a fused kernel against its plain reference.

  Both programs first compute the messages `relu (states · mW₁ + mb₁) · mW₂ + mb₂` with the same host operations.
  Node `r` then gathers them weighted by row `r` of the adjacency matrix, normalised by the row's degree
  `max (∑ₖ adj[r, k]) 1`, joins the gathered row to its own state and applies the update perceptron.  The kernel
  handles 256 rows per grid point and divides the weighted sum by the degree; the reference divides every adjacency
  entry by the degree and then takes the weighted sum.  Read on the extended reals, with every adjacency entry a
  real number (the precondition), the degree is a real number ≥ 1, its reciprocal a nonnegative real, and a
  nonnegative real factor moves across any sum: the two results are the same array.  Nothing else differs — a matrix
  product into a zero accumulator against a host product, a lane sum against a host sum, `max x 1` against `max 1 x`.

  The kernel's idealization rewrote nothing, so it preserves the kernel trivially; the three frames are the generated
  frame runs (the reference's its generated run with the result dropped).
-/
import proofs.«153163_j47777216200866_2_alg».proof.Defs
import proofs.«153163_j47777216200866_2_alg».proof.Proof.Gen.Kernel
import proofs.«153163_j47777216200866_2_alg».proof.Proof.Gen.Kernel.Skeleton
import proofs.«153163_j47777216200866_2_alg».proof.Proof.Gen.Kernel.Launch
import proofs.«153163_j47777216200866_2_alg».proof.Proof.Gen.Kernel.Points
import proofs.«153163_j47777216200866_2_alg».proof.Proof.Gen.Kernel.Frame
import proofs.«153163_j47777216200866_2_alg».proof.Proof.Gen.KernelIdeal
import proofs.«153163_j47777216200866_2_alg».proof.Proof.Gen.KernelIdeal.Skeleton
import proofs.«153163_j47777216200866_2_alg».proof.Proof.Gen.KernelIdeal.Launch
import proofs.«153163_j47777216200866_2_alg».proof.Proof.Gen.KernelIdeal.Points
import proofs.«153163_j47777216200866_2_alg».proof.Proof.Gen.KernelIdeal.Frame
import proofs.«153163_j47777216200866_2_alg».proof.Proof.Gen.ReferenceIdeal
import proofs.«153163_j47777216200866_2_alg».proof.Proof.Gen.Pre_finite_inputs
import proofs.«153163_j47777216200866_2_alg».proof.Proof.Gen.KernelIdeal.Value
import proofs.«153163_j47777216200866_2_alg».proof.Proof.Gen.ReferenceIdeal.Run
import proofs.«153163_j47777216200866_2_alg».proof.Proof.Gen.ReferenceIdeal.Read
import proofs.«153163_j47777216200866_2_alg».proof.Proof.RefValue
import proofs.«153163_j47777216200866_2_alg».proof.Proof.KernelArray
import proofs.«153163_j47777216200866_2_alg».proof.Proof.Finite
import Idealize.ShloMosaic.Adequacy
import Idealize.ShloMosaic.Init

noncomputable section

namespace Cert.Proof

open Idealize.ShloMosaic Idealize.ShloMosaic.ValueIdx Idealize.SL.Sem

/-- The reference's result is the array of node updates, the degree division taken before the weighted sum, over
    its own messages stage. -/
theorem reference_eq (x0 : (⟨Cert.ReferenceIdeal.S16384x32, .f32⟩ : BufTy).Contents (Elt Ideal))
    (x1 : (⟨Cert.ReferenceIdeal.S16384x16384, .f32⟩ : BufTy).Contents (Elt Ideal))
    (x2 : (⟨Cert.ReferenceIdeal.S32x128, .f32⟩ : BufTy).Contents (Elt Ideal))
    (x3 : (⟨Cert.ReferenceIdeal.S128, .f32⟩ : BufTy).Contents (Elt Ideal))
    (x4 : (⟨Cert.ReferenceIdeal.S128x32, .f32⟩ : BufTy).Contents (Elt Ideal))
    (x5 : (⟨Cert.ReferenceIdeal.S32, .f32⟩ : BufTy).Contents (Elt Ideal))
    (x6 : (⟨Cert.ReferenceIdeal.S64x128, .f32⟩ : BufTy).Contents (Elt Ideal))
    (x7 : (⟨Cert.ReferenceIdeal.S128, .f32⟩ : BufTy).Contents (Elt Ideal))
    (x8 : (⟨Cert.ReferenceIdeal.S128x32, .f32⟩ : BufTy).Contents (Elt Ideal))
    (x9 : (⟨Cert.ReferenceIdeal.S32, .f32⟩ : BufTy).Contents (Elt Ideal)) :
    Cert.ReferenceIdeal.Read.val_main_v24 (F := Ideal) x0 x1 x2 x3 x4 x5 x6 x7 x8 x9
      = GraphRow.updatesBefore x0 x1 (Cert.ReferenceIdeal.Read.val_main_v8 (F := Ideal) x0 x2 x3 x4 x5) x6 x7 x8 x9 := by
  funext i
  obtain ⟨r, d, rfl⟩ : ∃ (r : Fin 16384) (d : Fin 32), i = ix2 r d := ⟨i 0, i 1, eq_ix2 i⟩
  rw [GraphRow.updatesBefore_apply]
  exact Cert.ReferenceIdeal.RowValue.out_apply x0 x1 x2 x3 x4 x5 x6 x7 x8 x9 r d

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end with the array of node updates: the kernel with the
    division after the sum, the reference with it before, equal because the adjacency entries are real numbers. -/
theorem algebraic : Cert.algebraic_KernelIdeal_ReferenceIdeal := by
  intro m ρ m' ρ' hpre hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v24_eq, h0, h1, h2, h3, h4, h5, h6, h7, h8, h9, reference_eq]
  exact (GraphRow.updatesAfter_eq_updatesBefore _ _ _ _ _ _ _
    (Cert.Pre_finite_inputs.Finite.adj_real _ _ _ _ _ _ _ _ _ _ (hpre c))).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
